-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000x2 : Shape := ⟨2, ![1000000, 2]⟩
abbrev S600000x3 : Shape := ⟨2, ![600000, 3]⟩
abbrev S64x64 : Shape := ⟨2, ![64, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S1000000x64 .f32) (main_arg1 : IVec S1000000x2 32) (main_arg2 : IVec S600000x3 32) (main_arg3 : FVec F S64x64 .f32) (main_arg4 : FVec F S64x64 .f32) (main_arg5 : FVec F S64x64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S1000000x64 : Shape := ⟨2, ![1000000, 64]⟩
abbrev S1000000x2 : Shape := ⟨2, ![1000000, 2]⟩
abbrev S600000x3 : Shape := ⟨2, ![600000, 3]⟩
abbrev S64x64 : Shape := ⟨2, ![64, 64]⟩
abbrev S1000000x1 : Shape := ⟨2, ![1000000, 1]⟩
abbrev S1000000 : Shape := ⟨1, ![1000000]⟩
abbrev S600000x1 : Shape := ⟨2, ![600000, 1]⟩
abbrev S600000 : Shape := ⟨1, ![600000]⟩
abbrev S_ : Shape := ⟨0, ![]⟩
abbrev S500000x64 : Shape := ⟨2, ![500000, 64]⟩
abbrev S600000x64 : Shape := ⟨2, ![600000, 64]⟩
abbrev S8000x64 : Shape := ⟨2, ![8000, 64]⟩

abbrev nBuf : Space → Nat
  | .hbm => 121
  | .vmem => 11
  | .smem => 0
  | _ => 0

abbrev bufTy : (tb : Table) → Fin (tcTables nBuf tb) → BufTy
  | .hbm, ⟨0, _⟩ => ⟨S1000000x64, .f32⟩
  | .hbm, ⟨1, _⟩ => ⟨S1000000x2, .i32⟩
  | .hbm, ⟨2, _⟩ => ⟨S600000x3, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S1000000x1, .i32⟩
  | .hbm, ⟨7, _⟩ => ⟨S1000000, .i32⟩
  | .hbm, ⟨8, _⟩ => ⟨S1000000x1, .i32⟩
  | .hbm, ⟨9, _⟩ => ⟨S1000000, .i32⟩
  | .hbm, ⟨10, _⟩ => ⟨S600000x1, .i32⟩
  | .hbm, ⟨11, _⟩ => ⟨S600000, .i32⟩
  | .hbm, ⟨12, _⟩ => ⟨S600000x1, .i32⟩
  | .hbm, ⟨13, _⟩ => ⟨S600000, .i32⟩
  | .hbm, ⟨14, _⟩ => ⟨S600000x1, .i32⟩
  | .hbm, ⟨15, _⟩ => ⟨S600000, .i32⟩
  | .hbm, ⟨16, _⟩ => ⟨S_, .f32⟩
  | .hbm, ⟨17, _⟩ => ⟨S500000x64, .f32⟩
  | .hbm, ⟨18, _⟩ => ⟨S1000000x64, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S500000x64, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S500000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S1000000x64, .f32⟩
  | .hbm, ⟨56, _⟩ => ⟨S1000000x64, .bf16⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x64, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x64, .f32⟩
  | .hbm, ⟨75, _⟩ => ⟨S600000x64, .f32⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x64, .f32⟩
  | .hbm, ⟨85, _⟩ => ⟨S600000x64, .f32⟩
  | .hbm, ⟨86, _⟩ => ⟨S_, .f32⟩
  | .hbm, ⟨87, _⟩ => ⟨S1000000x64, .f32⟩
  | .hbm, ⟨88, _⟩ => ⟨S_, .i32⟩
  | .hbm, ⟨89, _⟩ => ⟨S600000, .i32⟩
  | .hbm, ⟨90, _⟩ => ⟨S600000, .i1⟩
  | .hbm, ⟨91, _⟩ => ⟨S_, .i32⟩
  | .hbm, ⟨92, _⟩ => ⟨S600000, .i32⟩
  | .hbm, ⟨93, _⟩ => ⟨S600000, .i32⟩
  | .hbm, ⟨94, _⟩ => ⟨S600000, .i32⟩
  | .hbm, ⟨95, _⟩ => ⟨S600000x1, .i32⟩
  | .hbm, ⟨96, _⟩ => ⟨S1000000x64, .f32⟩
  | .hbm, ⟨97, _⟩ => ⟨S600000x64, .f32⟩
  | .hbm, ⟨98, _⟩ => ⟨S_, .i32⟩
  | .hbm, ⟨99, _⟩ => ⟨S600000, .i32⟩
  | .hbm, ⟨100, _⟩ => ⟨S600000, .i1⟩
  | .hbm, ⟨101, _⟩ => ⟨S_, .i32⟩
  | .hbm, ⟨102, _⟩ => ⟨S600000, .i32⟩
  | .hbm, ⟨103, _⟩ => ⟨S600000, .i32⟩
  | .hbm, ⟨104, _⟩ => ⟨S600000, .i32⟩
  | .hbm, ⟨105, _⟩ => ⟨S600000x1, .i32⟩
  | .hbm, ⟨106, _⟩ => ⟨S1000000x64, .f32⟩
  | .hbm, ⟨107, _⟩ => ⟨S_, .i32⟩
  | .hbm, ⟨108, _⟩ => ⟨S600000, .i32⟩
  | .hbm, ⟨109, _⟩ => ⟨S600000, .i1⟩
  | .hbm, ⟨110, _⟩ => ⟨S_, .i32⟩
  | .hbm, ⟨111, _⟩ => ⟨S600000, .i32⟩
  | .hbm, ⟨112, _⟩ => ⟨S600000, .i32⟩
  | .hbm, ⟨113, _⟩ => ⟨S600000, .i32⟩
  | .hbm, ⟨114, _⟩ => ⟨S600000x1, .i32⟩
  | .hbm, ⟨115, _⟩ => ⟨S1000000x64, .f32⟩
  | .hbm, ⟨116, _⟩ => ⟨S1000000x64, .bf16⟩
  | .hbm, ⟨117, _⟩ => ⟨S64x64, .bf16⟩
  | .hbm, ⟨118, _⟩ => ⟨S64x64, .bf16⟩
  | .hbm, ⟨119, _⟩ => ⟨S64x64, .bf16⟩
  | .hbm, ⟨120, _⟩ => ⟨S1000000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .bf16⟩
  | .local _ .vmem, ⟨3, _⟩ => ⟨S8000x64, .bf16⟩
  | .local _ .vmem, ⟨4, _⟩ => ⟨S8000x64, .bf16⟩
  | .local _ .vmem, ⟨5, _⟩ => ⟨S8000x64, .bf16⟩
  | .local _ .vmem, ⟨6, _⟩ => ⟨S64x64, .bf16⟩
  | .local _ .vmem, ⟨7, _⟩ => ⟨S64x64, .bf16⟩
  | .local _ .vmem, ⟨8, _⟩ => ⟨S64x64, .bf16⟩
  | .local _ .vmem, ⟨9, _⟩ => ⟨S8000x64, .f32⟩
  | .local _ .vmem, ⟨10, _⟩ => ⟨S8000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_c_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_c_14 : Ref sig .tc := ⟨.hbm, 88, rfl⟩
abbrev main_v66 : Ref sig .tc := ⟨.hbm, 89, rfl⟩
abbrev main_v67 : Ref sig .tc := ⟨.hbm, 90, rfl⟩
abbrev main_c_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_16 : Ref sig .tc := ⟨.hbm, 98, rfl⟩
abbrev main_v74 : Ref sig .tc := ⟨.hbm, 99, rfl⟩
abbrev main_v75 : Ref sig .tc := ⟨.hbm, 100, rfl⟩
abbrev main_c_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_18 : Ref sig .tc := ⟨.hbm, 107, rfl⟩
abbrev main_v81 : Ref sig .tc := ⟨.hbm, 108, rfl⟩
abbrev main_v82 : Ref sig .tc := ⟨.hbm, 109, rfl⟩
abbrev main_c_19 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  slices_S600000x3_S600000x1_0_0 : S600000x3.Slices ![0, 0] S600000x1
  shapeCasts_S600000x1_S600000 : S600000x1.ShapeCasts S600000
  slices_S600000x3_S600000x1_0_1 : S600000x3.Slices ![0, 1] S600000x1
  slices_S600000x3_S600000x1_0_2 : S600000x3.Slices ![0, 2] S600000x1
  bcast_S_S500000x64 : S_.BroadcastsInDim S500000x64 (![] : Fin 0 → Fin S500000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  bcast_S_S1000000x64 : S_.BroadcastsInDim S1000000x64 (![] : Fin 0 → Fin S1000000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  scatter_S500000x64_S1000000x1_S1000000x64_1_0_0_1_wf : ScatterDims.WF S500000x64 S1000000x1 S1000000x64 [1] [0] [0] 1
  gather_S500000x64_S1000000x1_S1000000x64_1_0_n_n_0_1_164_wf : GatherDims.WF S500000x64 S1000000x1 S1000000x64 [1] [0] [] [0] [] 1 ![1, 64]
  gather_S1000000x64_S600000x1_S600000x64_1_0_n_n_0_1_164_wf : GatherDims.WF S1000000x64 S600000x1 S600000x64 [1] [0] [] [0] [] 1 ![1, 64]
  scatter_S1000000x64_S600000x1_S600000x64_1_0_0_1_wf : ScatterDims.WF S1000000x64 S600000x1 S600000x64 [1] [0] [0] 1
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .bf16 = 32 ∨ (Rect.block (s := S1000000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1000000x64.size a
  hwx0_2 : ∀ i : grid0.Coords, EltTy.bits .bf16 = 32 ∨ (Rect.block (s := S1000000x64) S8000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S1000000x64.size a
  hwx0_6 : ∀ i : grid0.Coords, EltTy.bits .f32 = 32 ∨ (Rect.block (s := S1000000x64) S8000x64.size (cc0_transform_6 i) (hinb0_6 i)).WholeWords (EltTy.packing .f32)

variable [Facts₀]

def scatter_S500000x64_S1000000x1_S1000000x64_1_0_0_1 : ScatterDims S500000x64 S1000000x1 S1000000x64 where
  updateWindowDims := [1]
  insertedWindowDims := [0]
  scatterDimsToOperandDims := [0]
  indexVectorDim := 1
  wf := scatter_S500000x64_S1000000x1_S1000000x64_1_0_0_1_wf
def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def gather_S1000000x64_S600000x1_S600000x64_1_0_n_n_0_1_164 : GatherDims S1000000x64 S600000x1 S600000x64 where
  offsetDims := [1]
  collapsedSliceDims := [0]
  operandBatchingDims := []
  startIndicesBatchingDims := []
  startIndexMap := [0]
  indexVectorDim := 1
  sliceSizes := ![1, 64]
  wf := gather_S1000000x64_S600000x1_S600000x64_1_0_n_n_0_1_164_wf
def scatter_S1000000x64_S600000x1_S600000x64_1_0_0_1 : ScatterDims S1000000x64 S600000x1 S600000x64 where
  updateWindowDims := [1]
  insertedWindowDims := [0]
  scatterDimsToOperandDims := [0]
  indexVectorDim := 1
  wf := scatter_S1000000x64_S600000x1_S600000x64_1_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v88) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v89) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v90) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v91) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v92) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S1000000x2 : Shape := ⟨2, ![1000000, 2]⟩
abbrev S600000x3 : Shape := ⟨2, ![600000, 3]⟩
abbrev S64x64 : Shape := ⟨2, ![64, 64]⟩
abbrev S1000000x1 : Shape := ⟨2, ![1000000, 1]⟩
abbrev S1000000 : Shape := ⟨1, ![1000000]⟩
abbrev S600000x1 : Shape := ⟨2, ![600000, 1]⟩
abbrev S600000 : Shape := ⟨1, ![600000]⟩
abbrev S_ : Shape := ⟨0, ![]⟩
abbrev S500000x64 : Shape := ⟨2, ![500000, 64]⟩
abbrev S600000x64 : Shape := ⟨2, ![600000, 64]⟩

abbrev nBuf : Space → Nat
  | .hbm => 121
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x2, .i32⟩
  | .hbm, ⟨2, _⟩ => ⟨S600000x3, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S1000000x1, .i32⟩
  | .hbm, ⟨7, _⟩ => ⟨S1000000, .i32⟩
  | .hbm, ⟨8, _⟩ => ⟨S1000000x1, .i32⟩
  | .hbm, ⟨9, _⟩ => ⟨S1000000, .i32⟩
  | .hbm, ⟨10, _⟩ => ⟨S600000x1, .i32⟩
  | .hbm, ⟨11, _⟩ => ⟨S600000, .i32⟩
  | .hbm, ⟨12, _⟩ => ⟨S600000x1, .i32⟩
  | .hbm, ⟨13, _⟩ => ⟨S600000, .i32⟩
  | .hbm, ⟨14, _⟩ => ⟨S600000x1, .i32⟩
  | .hbm, ⟨15, _⟩ => ⟨S600000, .i32⟩
  | .hbm, ⟨16, _⟩ => ⟨S_, .f32⟩
  | .hbm, ⟨17, _⟩ => ⟨S500000x64, .f32⟩
  | .hbm, ⟨18, _⟩ => ⟨S1000000x64, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S500000x64, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S500000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S1000000x64, .f32⟩
  | .hbm, ⟨56, _⟩ => ⟨S1000000x64, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x64, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x64, .f32⟩
  | .hbm, ⟨75, _⟩ => ⟨S600000x64, .f32⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x64, .f32⟩
  | .hbm, ⟨85, _⟩ => ⟨S600000x64, .f32⟩
  | .hbm, ⟨86, _⟩ => ⟨S_, .f32⟩
  | .hbm, ⟨87, _⟩ => ⟨S1000000x64, .f32⟩
  | .hbm, ⟨88, _⟩ => ⟨S_, .i32⟩
  | .hbm, ⟨89, _⟩ => ⟨S600000, .i32⟩
  | .hbm, ⟨90, _⟩ => ⟨S600000, .i1⟩
  | .hbm, ⟨91, _⟩ => ⟨S_, .i32⟩
  | .hbm, ⟨92, _⟩ => ⟨S600000, .i32⟩
  | .hbm, ⟨93, _⟩ => ⟨S600000, .i32⟩
  | .hbm, ⟨94, _⟩ => ⟨S600000, .i32⟩
  | .hbm, ⟨95, _⟩ => ⟨S600000x1, .i32⟩
  | .hbm, ⟨96, _⟩ => ⟨S1000000x64, .f32⟩
  | .hbm, ⟨97, _⟩ => ⟨S600000x64, .f32⟩
  | .hbm, ⟨98, _⟩ => ⟨S_, .i32⟩
  | .hbm, ⟨99, _⟩ => ⟨S600000, .i32⟩
  | .hbm, ⟨100, _⟩ => ⟨S600000, .i1⟩
  | .hbm, ⟨101, _⟩ => ⟨S_, .i32⟩
  | .hbm, ⟨102, _⟩ => ⟨S600000, .i32⟩
  | .hbm, ⟨103, _⟩ => ⟨S600000, .i32⟩
  | .hbm, ⟨104, _⟩ => ⟨S600000, .i32⟩
  | .hbm, ⟨105, _⟩ => ⟨S600000x1, .i32⟩
  | .hbm, ⟨106, _⟩ => ⟨S1000000x64, .f32⟩
  | .hbm, ⟨107, _⟩ => ⟨S_, .i32⟩
  | .hbm, ⟨108, _⟩ => ⟨S600000, .i32⟩
  | .hbm, ⟨109, _⟩ => ⟨S600000, .i1⟩
  | .hbm, ⟨110, _⟩ => ⟨S_, .i32⟩
  | .hbm, ⟨111, _⟩ => ⟨S600000, .i32⟩
  | .hbm, ⟨112, _⟩ => ⟨S600000, .i32⟩
  | .hbm, ⟨113, _⟩ => ⟨S600000, .i32⟩
  | .hbm, ⟨114, _⟩ => ⟨S600000x1, .i32⟩
  | .hbm, ⟨115, _⟩ => ⟨S1000000x64, .f32⟩
  | .hbm, ⟨116, _⟩ => ⟨S1000000x64, .f32⟩
  | .hbm, ⟨117, _⟩ => ⟨S1000000x64, .f32⟩
  | .hbm, ⟨118, _⟩ => ⟨S1000000x64, .f32⟩
  | .hbm, ⟨119, _⟩ => ⟨S1000000x64, .f32⟩
  | .hbm, ⟨120, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_c_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_c_14 : Ref sig .tc := ⟨.hbm, 88, rfl⟩
abbrev main_v66 : Ref sig .tc := ⟨.hbm, 89, rfl⟩
abbrev main_v67 : Ref sig .tc := ⟨.hbm, 90, rfl⟩
abbrev main_c_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_16 : Ref sig .tc := ⟨.hbm, 98, rfl⟩
abbrev main_v74 : Ref sig .tc := ⟨.hbm, 99, rfl⟩
abbrev main_v75 : Ref sig .tc := ⟨.hbm, 100, rfl⟩
abbrev main_c_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_18 : Ref sig .tc := ⟨.hbm, 107, rfl⟩
abbrev main_v81 : Ref sig .tc := ⟨.hbm, 108, rfl⟩
abbrev main_v82 : Ref sig .tc := ⟨.hbm, 109, rfl⟩
abbrev main_c_19 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  slices_S600000x3_S600000x1_0_0 : S600000x3.Slices ![0, 0] S600000x1
  shapeCasts_S600000x1_S600000 : S600000x1.ShapeCasts S600000
  slices_S600000x3_S600000x1_0_1 : S600000x3.Slices ![0, 1] S600000x1
  slices_S600000x3_S600000x1_0_2 : S600000x3.Slices ![0, 2] S600000x1
  bcast_S_S500000x64 : S_.BroadcastsInDim S500000x64 (![] : Fin 0 → Fin S500000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S1000000x64 : S_.BroadcastsInDim S1000000x64 (![] : Fin 0 → Fin S1000000x64.rank)
  scatter_S500000x64_S1000000x1_S1000000x64_1_0_0_1_wf : ScatterDims.WF S500000x64 S1000000x1 S1000000x64 [1] [0] [0] 1
  gather_S500000x64_S1000000x1_S1000000x64_1_0_n_n_0_1_164_wf : GatherDims.WF S500000x64 S1000000x1 S1000000x64 [1] [0] [] [0] [] 1 ![1, 64]
  dot_S1000000x64_S64x64_S1000000x64_1_0_0_1_n_n_wf : DotDims.WF S1000000x64 S64x64 S1000000x64 [1] [0] [0] [1] [] []
  gather_S1000000x64_S600000x1_S600000x64_1_0_n_n_0_1_164_wf : GatherDims.WF S1000000x64 S600000x1 S600000x64 [1] [0] [] [0] [] 1 ![1, 64]
  scatter_S1000000x64_S600000x1_S600000x64_1_0_0_1_wf : ScatterDims.WF S1000000x64 S600000x1 S600000x64 [1] [0] [0] 1

variable [Facts₀]

def scatter_S500000x64_S1000000x1_S1000000x64_1_0_0_1 : ScatterDims S500000x64 S1000000x1 S1000000x64 where
  updateWindowDims := [1]
  insertedWindowDims := [0]
  scatterDimsToOperandDims := [0]
  indexVectorDim := 1
  wf := scatter_S500000x64_S1000000x1_S1000000x64_1_0_0_1_wf
def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S1000000x64_S600000x1_S600000x64_1_0_n_n_0_1_164 : GatherDims S1000000x64 S600000x1 S600000x64 where
  offsetDims := [1]
  collapsedSliceDims := [0]
  operandBatchingDims := []
  startIndicesBatchingDims := []
  startIndexMap := [0]
  indexVectorDim := 1
  sliceSizes := ![1, 64]
  wf := gather_S1000000x64_S600000x1_S600000x64_1_0_n_n_0_1_164_wf
def scatter_S1000000x64_S600000x1_S600000x64_1_0_0_1 : ScatterDims S1000000x64 S600000x1 S600000x64 where
  updateWindowDims := [1]
  insertedWindowDims := [0]
  scatterDimsToOperandDims := [0]
  indexVectorDim := 1
  wf := scatter_S1000000x64_S600000x1_S600000x64_1_0_0_1_wf

class Facts : Prop extends Facts₀ where

variable [Facts]
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.Layer.lean ====
/-
  The layer both programs compute, entry by entry.

  The data are three matrices with one row per edge and 64 columns — the edge features x, their image `down` under the
  lower Laplacian (scatter each edge's signed features onto its two end nodes, gather the node sums back with the same
  signs) and their image `up` under the upper Laplacian (gather each triangle's signed edge features, scatter the sums
  back onto the triangle's three edges with the same signs) — and three 64 × 64 weights.  The result is

      out (e, c) = tanh ((Σ_k up (e, k) · w2 (k, c) + Σ_k x (e, k) · w1 (k, c)) + Σ_k down (e, k) · w0 (k, c)),

  the three products added in exactly this order.  Entry (e, c) reads row e of the three row matrices and column c of
  the three weights and nothing else, so a block of consecutive rows of the result is the same expression of the same
  block of rows of the three matrices: `entry_congr`.  No law of arithmetic is used, only the order of the operations,
  so nothing here asks the entries to be finite.
-/
import proofs.«101061_j20151986553302_2_alg».proof.Proof.LibDot

noncomputable section

namespace Cert.Layer

open Idealize.ShloMosaic Idealize.ShloMosaic.ValueIdx
open scoped BigOperators

/-- Entry (p, q) of the layer over `n` rows: the hyperbolic tangent of the three products' entries, the upper term and the
    identity term added first, the lower term last. -/
def entry {n : ℕ} (x down up : (⟨2, ![n, 64]⟩ : Shape).Idx → EReal) (w0 w1 w2 : (⟨2, ![64, 64]⟩ : Shape).Idx → EReal)
    (p : Fin n) (q : Fin 64) : EReal :=
  Ideal.tanh (((∑ k : Fin 64, up (ix2 p k) * w2 (ix2 k q)) + ∑ k : Fin 64, x (ix2 p k) * w1 (ix2 k q))
    + ∑ k : Fin 64, down (ix2 p k) * w0 (ix2 k q))

/-- The layer over all 1,000,000 edges, as one function of the index. -/
def layer (x down up : (⟨2, ![1000000, 64]⟩ : Shape).Idx → EReal) (w0 w1 w2 : (⟨2, ![64, 64]⟩ : Shape).Idx → EReal) :
    (⟨2, ![1000000, 64]⟩ : Shape).Idx → EReal :=
  fun i => entry x down up w0 w1 w2 (i 0) (i 1)

theorem layer_ix2 (x down up : (⟨2, ![1000000, 64]⟩ : Shape).Idx → EReal) (w0 w1 w2 : (⟨2, ![64, 64]⟩ : Shape).Idx → EReal)
    (p : Fin 1000000) (q : Fin 64) : layer x down up w0 w1 w2 (ix2 p q) = entry x down up w0 w1 w2 p q := rfl

/-- An entry depends on one row of each row matrix and one column of each weight: two families of matrices, of any
    two heights, that agree on row p / row p' and on column q / column q' have the same entry there. -/
theorem entry_congr {n n' : ℕ} (x down up : (⟨2, ![n, 64]⟩ : Shape).Idx → EReal)
    (x' down' up' : (⟨2, ![n', 64]⟩ : Shape).Idx → EReal) (w0 w1 w2 w0' w1' w2' : (⟨2, ![64, 64]⟩ : Shape).Idx → EReal)
    (p : Fin n) (p' : Fin n') (q q' : Fin 64)
    (hx : ∀ k : Fin 64, x (ix2 p k) = x' (ix2 p' k)) (hd : ∀ k : Fin 64, down (ix2 p k) = down' (ix2 p' k))
    (hu : ∀ k : Fin 64, up (ix2 p k) = up' (ix2 p' k))
    (h0 : ∀ k : Fin 64, w0 (ix2 k q) = w0' (ix2 k q')) (h1 : ∀ k : Fin 64, w1 (ix2 k q) = w1' (ix2 k q'))
    (h2 : ∀ k : Fin 64, w2 (ix2 k q) = w2' (ix2 k q')) :
    entry x down up w0 w1 w2 p q = entry x' down' up' w0' w1' w2' p' q' := by
  unfold entry
  simp only [hx, hd, hu, h0, h1, h2]

end Cert.Layer

end
-- ==== Proof.Body.lean ====
/-
  What the kernel body computes from the blocks it loads, entry by entry.

  At a grid point the body holds a block of 8000 consecutive rows of x (rounded to the narrower format on the way into the
  matrix unit — the identity on the extended reals), the same 8000 rows of `down` and of `up`, and the three weights whole.
  It forms the three products in the matrix unit, each into a zero accumulator, adds the upper and the identity term, then
  the lower term, and applies the hyperbolic tangent.  Each product's entry (p, q) is Σ_k lhs (p, k) · rhs (k, q) (the
  dimension numbers contract the left operand's columns with the right operand's rows and have no batch axis), so the
  stored block's entry (p, q) is the layer's entry (p, q) over these 8000 rows.
-/
import proofs.«101061_j20151986553302_2_alg».proof.Proof.Gen.KernelIdeal.Skeleton
import proofs.«101061_j20151986553302_2_alg».proof.Proof.Layer
import Idealize.ShloMosaic.Lib.Pipeline.Value

noncomputable section

namespace Cert.KernelIdeal.Body

open Cert.KernelIdeal Cert.KernelIdeal.Gen Idealize.ShloMosaic Idealize.ShloMosaic.ValueIdx
open scoped BigOperators

/-- The body's dimension numbers: rows of the left operand times columns of the right, the 64 in between contracted. -/
abbrev dims := dot_S8000x64_S64x64_S8000x64_1_0_0_1_n_n

theorem lhs_row (i : S8000x64.Idx) (q : dims.contr.Idx) : (dims.lhsIdx i q 0).val = (i 0).val := by
  unfold DotDims.lhsIdx
  rw [dif_neg (show ¬(0 : Fin S8000x64.rank) ∈ dims.lhsBatch by decide), dif_pos (show (0 : Fin S8000x64.rank) ∈ dims.lhsNonContracting by decide)]
  rfl
theorem lhs_col (i : S8000x64.Idx) (q : dims.contr.Idx) : (dims.lhsIdx i q 1).val = (q ⟨0, by decide⟩).val :=
  dims.lhsIdx_val_of_single rfl i q
theorem rhs_row (i : S8000x64.Idx) (q : dims.contr.Idx) : (dims.rhsIdx i q 0).val = (q ⟨0, by decide⟩).val :=
  dims.rhsIdx_val_of_single rfl i q
theorem rhs_col (i : S8000x64.Idx) (q : dims.contr.Idx) : (dims.rhsIdx i q 1).val = (i 1).val := by
  unfold DotDims.rhsIdx
  rw [dif_neg (show ¬(1 : Fin S64x64.rank) ∈ dims.rhsBatch by decide), dif_pos (show (1 : Fin S64x64.rank) ∈ dims.rhsNonContracting by decide)]
  rfl

/-- One product of the body, into the zero accumulator, at entry (p, q): the sum over the 64 contracted positions. -/
theorem product_apply {φ₁ φ₂ : FTy} (a : FVec Ideal S8000x64 φ₁) (b : FVec Ideal S64x64 φ₂) (p : Fin 8000) (q : Fin 64) :
    matmul dims none a b (constant (F := Ideal) S8000x64 .f32 0x00000000#32) (ix2 p q) = ∑ k : Fin 64, a (ix2 p k) * b (ix2 k q) :=
  Cert.LibDot.matmul_zero_apply dims rfl rfl lhs_row lhs_col rhs_row rhs_col none a b p q

/-- The stored block at entry (p, q) is the layer's entry over the loaded rows: x's block, `down`'s block, `up`'s block,
    and the weights in the order w0, w1, w2. -/
theorem payload_entry (v0 : Vec Ideal S8000x64 .f32) (v2 v4 : Vec Ideal S8000x64 .bf16) (v6 v8 v10 : Vec Ideal S64x64 .bf16)
    (p : Fin 8000) (q : Fin 64) :
    k0_pay1 (F := Ideal) v0 v2 v4 v6 v8 v10 (ix2 p q) = Cert.Layer.entry (n := 8000) v0 v2 v4 v6 v8 v10 p q := by
  unfold k0_pay1
  simp only [shapeCast_self]
  show Ideal.tanh ((matmul dims none v4 v10 (constant (F := Ideal) S8000x64 .f32 0x00000000#32) (ix2 p q)
      + matmul dims none (truncf .bf16 v0 bitsLt_bf16_f32) v8 (constant (F := Ideal) S8000x64 .f32 0x00000000#32) (ix2 p q))
      + matmul dims none v2 v6 (constant (F := Ideal) S8000x64 .f32 0x00000000#32) (ix2 p q)) = _
  rw [product_apply, product_apply, product_apply]
  rfl

end Cert.KernelIdeal.Body

end
-- ==== Proof.Blocks.lean ====
/-
  From blocks to the whole array.

  The grid has 125 points; point t stages rows 8000·t … 8000·t + 7999 of x, of `down` and of `up`, the three weights whole,
  and writes back rows 8000·t … 8000·t + 7999 of the result.  The body stores the layer's entries over the rows it
  loaded (Body.lean), an entry of the layer reads one row of each row matrix and one column of each weight
  (`Layer.entry_congr`), and row p of a point's block is row 8000·t + p of the array; so what point t writes back is
  block t of the layer of the arrays as the region finds them.  The 125 blocks cover every row (row r lies in the block
  of point r / 8000), hence after the run the result array IS that layer.
-/
import proofs.«101061_j20151986553302_2_alg».proof.Proof.Gen.KernelIdeal.Value
import proofs.«101061_j20151986553302_2_alg».proof.Proof.Body

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The layer of the six arrays the region finds: x itself, and the five arrays the host lines before the region wrote. -/
def found (c : Dev nD) : S1000000x64.Idx → EReal :=
  Cert.Layer.layer (V m c main_arg0) (V m c main_v41) (V m c main_v88) (V m c main_v89) (V m c main_v90) (V m c main_v91)

/-- The block indices at every grid point, decided over the 125 points: the three row windows and the output move
    together down the rows, block t at point t; the weights' one block is block (0, 0). -/
theorem block_indices : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) = t.val :=
  (by decide +kernel : ∀ t : Fin grid0.N, _)

/-! ## A block of an array, read where the array has it

Stated for ANY arrays in the six windows' places (the arrays the region really finds are put in at the end): nothing here
depends on what the arrays hold. -/

section AnyArrays

variable (t : Fin cfg0.N)
variable (A0 : (⟨S1000000x64, .f32⟩ : BufTy).Contents (Elt Ideal)) (A1 A2 : (⟨S1000000x64, .bf16⟩ : BufTy).Contents (Elt Ideal))
variable (A3 A4 A5 : (⟨S64x64, .bf16⟩ : BufTy).Contents (Elt Ideal))

/-- The first row window's block at point t: entry y is the array's entry i whenever i is y moved down by the point's
    row offset. -/
theorem rows0 (y : S8000x64.Idx) (i : S1000000x64.Idx)
    (h0 : (i 0).val = win0_6.index t (0 : Fin 2) * 8000 + (y 0).val) (h1 : (i 1).val = (y 1).val) :
    (((cfg0.win 0).blk t).view.read (Elt Ideal) A0 : Vec Ideal S8000x64 .f32) y = A0 i := by
  obtain ⟨e00, e01, -⟩ := block_indices t
  show A0 (((cfg0.win 0).blk t).view.emb y) = A0 i
  refine congrArg A0 (funext fun a => Fin.ext ?_)
  match a with
  | ⟨0, _⟩ => show win0_0.index t (0 : Fin 2) * 8000 + 1 * (y 0).val = (i 0).val; omega
  | ⟨1, _⟩ => show win0_0.index t (1 : Fin 2) * 64 + 1 * (y 1).val = (i 1).val; omega

/-- The second row window's block, the same rows. -/
theorem rows1 (y : S8000x64.Idx) (i : S1000000x64.Idx)
    (h0 : (i 0).val = win0_6.index t (0 : Fin 2) * 8000 + (y 0).val) (h1 : (i 1).val = (y 1).val) :
    (((cfg0.win 1).blk t).view.read (Elt Ideal) A1 : Vec Ideal S8000x64 .bf16) y = A1 i := by
  obtain ⟨-, -, e10, e11, -⟩ := block_indices t
  show A1 (((cfg0.win 1).blk t).view.emb y) = A1 i
  refine congrArg A1 (funext fun a => Fin.ext ?_)
  match a with
  | ⟨0, _⟩ => show win0_1.index t (0 : Fin 2) * 8000 + 1 * (y 0).val = (i 0).val; omega
  | ⟨1, _⟩ => show win0_1.index t (1 : Fin 2) * 64 + 1 * (y 1).val = (i 1).val; omega

/-- The third row window's block, the same rows. -/
theorem rows2 (y : S8000x64.Idx) (i : S1000000x64.Idx)
    (h0 : (i 0).val = win0_6.index t (0 : Fin 2) * 8000 + (y 0).val) (h1 : (i 1).val = (y 1).val) :
    (((cfg0.win 2).blk t).view.read (Elt Ideal) A2 : Vec Ideal S8000x64 .bf16) y = A2 i := by
  obtain ⟨-, -, -, -, e20, e21, -⟩ := block_indices t
  show A2 (((cfg0.win 2).blk t).view.emb y) = A2 i
  refine congrArg A2 (funext fun a => Fin.ext ?_)
  match a with
  | ⟨0, _⟩ => show win0_2.index t (0 : Fin 2) * 8000 + 1 * (y 0).val = (i 0).val; omega
  | ⟨1, _⟩ => show win0_2.index t (1 : Fin 2) * 64 + 1 * (y 1).val = (i 1).val; omega

/-- A weight window's one block is the weight: the first, -/
theorem weight3 (y : S64x64.Idx) :
    (((cfg0.win 3).blk t).view.read (Elt Ideal) A3 : Vec Ideal S64x64 .bf16) y = A3 y := by
  obtain ⟨-, -, -, -, -, -, e30, e31, -⟩ := block_indices t
  show A3 (((cfg0.win 3).blk t).view.emb y) = A3 y
  refine congrArg A3 (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- the second, -/
theorem weight4 (y : S64x64.Idx) :
    (((cfg0.win 4).blk t).view.read (Elt Ideal) A4 : Vec Ideal S64x64 .bf16) y = A4 y := by
  obtain ⟨-, -, -, -, -, -, -, -, e40, e41, -⟩ := block_indices t
  show A4 (((cfg0.win 4).blk t).view.emb y) = A4 y
  refine congrArg A4 (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- and the third. -/
theorem weight5 (y : S64x64.Idx) :
    (((cfg0.win 5).blk t).view.read (Elt Ideal) A5 : Vec Ideal S64x64 .bf16) y = A5 y := by
  obtain ⟨-, -, -, -, -, -, -, -, -, -, e50, e51, -⟩ := block_indices t
  show A5 (((cfg0.win 5).blk t).view.emb y) = A5 y
  refine congrArg A5 (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

/-! ## What a point writes back -/

/-- The array index of entry (p, q) of point t's output block: row 8000·t + p, column q. -/
def place (p : Fin 8000) (q : Fin 64) : S1000000x64.Idx := ((cfg0.win 6).blk t).view.emb (ix2 p q)

theorem place_row (p : Fin 8000) (q : Fin 64) :
    (place t p q 0).val = win0_6.index t (0 : Fin 2) * 8000 + p.val := by
  show win0_6.index t (0 : Fin 2) * 8000 + 1 * p.val = _; omega

theorem place_col (p : Fin 8000) (q : Fin 64) : place t p q 1 = q := by
  obtain ⟨-, -, -, -, -, -, -, -, -, -, -, -, e61, -⟩ := block_indices t
  refine Fin.ext ?_
  show win0_6.index t (1 : Fin 2) * 64 + 1 * q.val = q.val; omega

/-- The body's result on the six windows' blocks at point t, read through the output window's block, is block t of the
    layer of the six arrays. -/
theorem block_of_layer :
    (cfg0.win 6).cut (grid0.coords t)
        (out0_6 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (Cert.Layer.layer A0 A1 A2 A3 A4 A5) := by
  unfold out0_6
  rw [View.canon_unit_zero origin]
  simp only [View.ld_unit_zero (S := S8000x64) origin, View.ld_unit_zero (S := S64x64) origin]
  refine funext fun (j : S8000x64.Idx) => ?_
  obtain ⟨p, q, rfl⟩ : ∃ (p : Fin 8000) (q : Fin 64), j = ix2 p q := ⟨j 0, j 1, eq_ix2 j⟩
  show k0_pay1 (F := Ideal) (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) (((cfg0.win 5).blk t).view.read (Elt Ideal) A5) (ix2 p q)
    = Cert.Layer.entry (n := 1000000) A0 A1 A2 A3 A4 A5 (place t p q 0) (place t p q 1)
  rw [place_col]
  refine (Cert.KernelIdeal.Body.payload_entry _ _ _ _ _ _ p q).trans ?_
  have hrow := place_row t p q
  exact Cert.Layer.entry_congr (n := 8000) (n' := 1000000) _ _ _ _ _ _ _ _ _ _ _ _ p (place t p q 0) q q
    (fun k => rows0 t A0 (ix2 p k) (ix2 (place t p q 0) k) hrow rfl)
    (fun k => rows1 t A1 (ix2 p k) (ix2 (place t p q 0) k) hrow rfl)
    (fun k => rows2 t A2 (ix2 p k) (ix2 (place t p q 0) k) hrow rfl)
    (fun k => weight3 t A3 (ix2 k q)) (fun k => weight4 t A4 (ix2 k q)) (fun k => weight5 t A5 (ix2 k q))

end AnyArrays

/-- Point t writes back block t of the layer of the arrays the region finds. -/
theorem flushed_eq (c : Dev nD) (t : Fin cfg0.N) :
    (dats m 0 c).flushed 6 t = ((cfg0.win 6).blk t).view.read (Elt Ideal) (found m c) := by
  rw [flushed6]
  exact block_of_layer t (V m c main_arg0) (V m c main_v41) (V m c main_v88) (V m c main_v89) (V m c main_v90) (V m c main_v91)

/-! ## The blocks cover the array -/

/-- An index is in point t's block iff each coordinate is in the block's range on its axis. -/
theorem mem_block (t : Fin cfg0.N) (i : S1000000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v92).slice (win0_6.rect t)).set ↔ _
  rw [View.set_slice_whole, Rect.mem_set_unit]
  exact Iff.rfl

/-- Row r is in the block of point r / 8000. -/
theorem covered (i : S1000000x64.Idx) : ∃ t : Fin cfg0.N, (cfg0.win 6).flush t = true ∧ i ∈ ((cfg0.win 6).blk t).view.set := by
  have hi0 : (i 0).val < 1000000 := (i 0).isLt
  have hi1 : (i 1).val < 64 := (i 1).isLt
  have hN : grid0.N = 125 := N_0
  have ht : (i 0).val / 8000 < cfg0.N := by show (i 0).val / 8000 < grid0.N; rw [hN]; omega
  obtain ⟨-, -, -, -, -, -, -, -, -, -, -, -, e61, e60⟩ := block_indices ⟨(i 0).val / 8000, ht⟩
  have e60' : win0_6.index ⟨(i 0).val / 8000, ht⟩ (0 : Fin 2) = (i 0).val / 8000 := e60
  refine ⟨⟨(i 0).val / 8000, ht⟩, flush0_6 _, ?_⟩
  rw [mem_block]
  intro a
  match a with
  | ⟨0, _⟩ =>
    show win0_6.index ⟨(i 0).val / 8000, ht⟩ (0 : Fin 2) * 8000 ≤ (i 0).val ∧ (i 0).val < win0_6.index ⟨(i 0).val / 8000, ht⟩ (0 : Fin 2) * 8000 + 8000
    rw [e60']; omega
  | ⟨1, _⟩ =>
    show win0_6.index ⟨(i 0).val / 8000, ht⟩ (1 : Fin 2) * 64 ≤ (i 1).val ∧ (i 1).val < win0_6.index ⟨(i 0).val / 8000, ht⟩ (1 : Fin 2) * 64 + 64
    rw [e61]; omega

/-- After the run the result array is the layer of the arrays the region finds. -/
theorem final (c : Dev nD) : (dats m 0 c).arrAt 6 cfg0.N = found m c :=
  (dats m 0 c).arrAt_eq_of_cover 6 (found m c) (fun t _ => flushed_eq m c t) covered

/-- The kernel's run, read: the result array at the layer of the found arrays, the arguments unchanged. -/
theorem run : θ_run defs (onTc (τ := τ) (main (F := Ideal))) ⟨m, fun _ => 0, ρ⟩ fun r => ∀ c : Dev nD,
      r.2.mem ((c : Thread nD τ).loc main_v92) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Blocks

end
-- ==== Proof.HostRows.lean ====
/-
  The two row matrices the kernel's program prepares before its region are the reference's.

  Before the region the kernel's program runs, line for line, the reference's own scatter and gather lines on the same
  arguments, and then only rounds the two results to the narrower format — the identity on the extended reals.  So the
  array the region finds for `down` is the reference's value %40 of (x, edge_nodes), and the array it finds for `up` is the
  reference's value %87 of (x, tri_edges): the same operations applied to the same arrays.  The scatters and gathers are
  compared as written, operation by operation, never evaluated.
-/
import proofs.«101061_j20151986553302_2_alg».proof.Proof.Gen.KernelIdeal.Frame
import proofs.«101061_j20151986553302_2_alg».proof.Proof.Gen.ReferenceIdeal.Read
import Idealize.ShloMosaic.Lib.StableHlo.Run

noncomputable section

namespace Cert.KernelIdeal.HostRows

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Rounding to a narrower format is the identity on the extended reals. -/
theorem truncf_ideal {s : Shape} {φ : FTy} (ψ : FTy) (x : FVec Ideal s φ) (h : ψ.bits < φ.bits) :
    truncf (F := Ideal) ψ x h = x := rfl

set_option maxRecDepth 8192 in
set_option maxHeartbeats 4000000 in
/-- The array the region finds for `down`: the lower Laplacian's image of x, as the reference computes it. -/
theorem found_down (c : Dev nD) : (V m c main_v41 : S1000000x64.Idx → EReal)
    = Cert.ReferenceIdeal.Read.val_main_v40 (F := Ideal) (m ((c : Thread nD τ).loc main_arg0)) (m ((c : Thread nD τ).loc main_arg1)) := by
  dsimp only [V, hostOps0]
  after_results_simp
  refine Eq.trans (truncf_ideal _ _ _) ?_
  rfl

set_option maxRecDepth 8192 in
set_option maxHeartbeats 4000000 in
/-- The array the region finds for `up`: the upper Laplacian's image of x, as the reference computes it. -/
theorem found_up (c : Dev nD) : (V m c main_v88 : S1000000x64.Idx → EReal)
    = Cert.ReferenceIdeal.Read.val_main_v87 (F := Ideal) (m ((c : Thread nD τ).loc main_arg0)) (m ((c : Thread nD τ).loc main_arg2)) := by
  dsimp only [V, hostOps0]
  after_results_simp
  refine Eq.trans (truncf_ideal _ _ _) ?_
  rfl

end Cert.KernelIdeal.HostRows

end
-- ==== Proof.HostWeights.lean ====
/-
  The three weights the region finds are the arguments.

  Before the region the kernel's program rounds each 64 × 64 weight to the narrower format once; on the extended reals
  that is the identity, so the arrays the region finds for w0, w1, w2 are the arguments themselves.
-/
import proofs.«101061_j20151986553302_2_alg».proof.Proof.Gen.KernelIdeal.Frame
import proofs.«101061_j20151986553302_2_alg».proof.Proof.Gen.ReferenceIdeal.Read
import Idealize.ShloMosaic.Lib.StableHlo.Run

noncomputable section

namespace Cert.KernelIdeal.HostWeights

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 4000000 in
theorem found_w0 (c : Dev nD) : (V m c main_v89 : S64x64.Idx → EReal) = m ((c : Thread nD τ).loc main_arg3) := by
  dsimp only [V, hostOps0]
  after_results_simp
  rfl

set_option maxRecDepth 8192 in
set_option maxHeartbeats 4000000 in
theorem found_w1 (c : Dev nD) : (V m c main_v90 : S64x64.Idx → EReal) = m ((c : Thread nD τ).loc main_arg4) := by
  dsimp only [V, hostOps0]
  after_results_simp
  rfl

set_option maxRecDepth 8192 in
set_option maxHeartbeats 4000000 in
theorem found_w2 (c : Dev nD) : (V m c main_v91 : S64x64.Idx → EReal) = m ((c : Thread nD τ).loc main_arg5) := by
  dsimp only [V, hostOps0]
  after_results_simp
  rfl

end Cert.KernelIdeal.HostWeights

end
-- ==== Proof.RefLayer.lean ====
/-
  The reference's result as the layer of its own two Laplacian images.

  After its scatter and gather lines the reference holds `down` (its value %40) and `up` (its value %87) and finishes with
  three host matrix products, two additions and the hyperbolic tangent:  tanh ((up · w2 + x · w1) + down · w0).  On the
  extended reals the host's product at entry (p, q) is Σ_k lhs (p, k) · rhs (k, q), so the result is the layer of
  (x, down, up, w0, w1, w2), index by index.  The scatter and gather lines themselves are never opened.
-/
import proofs.«101061_j20151986553302_2_alg».proof.Proof.Gen.ReferenceIdeal.Read
import proofs.«101061_j20151986553302_2_alg».proof.Proof.Layer

noncomputable section

namespace Cert.ReferenceIdeal.RefLayer

open Cert.ReferenceIdeal Cert.ReferenceIdeal.Gen Cert.ReferenceIdeal.Read Idealize.ShloMosaic Idealize.ShloMosaic.ValueIdx
open scoped BigOperators

/-- The reference's dimension numbers for all three products. -/
abbrev dims := dot_S1000000x64_S64x64_S1000000x64_1_0_0_1_n_n

/-- One host product at entry (p, q): the sum over the 64 contracted positions. -/
theorem product_apply (a : FVec Ideal S1000000x64 .f32) (b : FVec Ideal S64x64 .f32) (p : Fin 1000000) (q : Fin 64) :
    Host.dotGeneral dims none a b (ix2 p q) = ∑ k : Fin 64, a (ix2 p k) * b (ix2 k q) :=
  Cert.LibDot.dotGeneral_apply dims rfl rfl lhs_main_v88_0 lhs_main_v88_1 rhs_main_v88_0 rhs_main_v88_1 none .single a b p q

/-- The reference's result is the layer of x, its lower image (%40), its upper image (%87) and the three weights. -/
theorem result_eq (x0 : (⟨S1000000x64, .f32⟩ : BufTy).Contents (Elt Ideal)) (x1 : (⟨S1000000x2, .i32⟩ : BufTy).Contents (Elt Ideal))
    (x2 : (⟨S600000x3, .i32⟩ : BufTy).Contents (Elt Ideal)) (x3 x4 x5 : (⟨S64x64, .f32⟩ : BufTy).Contents (Elt Ideal)) :
    val_main_v92 (F := Ideal) x0 x1 x2 x3 x4 x5
      = Cert.Layer.layer x0 (val_main_v40 (F := Ideal) x0 x1) (val_main_v87 (F := Ideal) x0 x2) x3 x4 x5 := by
  funext i
  obtain ⟨p, q, rfl⟩ : ∃ (p : Fin 1000000) (q : Fin 64), i = ix2 p q := ⟨i 0, i 1, eq_ix2 i⟩
  rw [val_main_v92_apply, val_main_v91_apply, val_main_v90_apply]
  unfold val_main_v88 val_main_v89 val_main_v41
  rw [product_apply, product_apply, product_apply, Cert.Layer.layer_ix2]
  unfold Cert.Layer.entry
  simp only [Ideal.hostUnary_tanh_def, Ideal.addf_def]

end Cert.ReferenceIdeal.RefLayer

end
-- ==== Proof.lean ====
/-
  The kernel and its reference compute one layer of a simplicial network on 1,000,000 edges:

      out = tanh ((up · w2 + x · w1) + down · w0),

  where down = B1ᵀB1 x (scatter the signed edge features onto the end nodes, gather them back) and up = B2B2ᵀ x (gather
  the signed edge features of each triangle, scatter them back).  The reference does everything on the host.  The
  kernel's program computes `down` and `up` on the host by the very same scatter and gather lines, and only the three
  products, the two additions and the hyperbolic tangent in a kernel, tiled over the rows in 125 blocks of 8000, its matrix
  unit fed in a narrower float format.

  On the extended reals a change of format is the identity and both a matrix-unit product into a zero accumulator and a
  host product are the plain sums Σ_k lhs (p, k) · rhs (k, q); the three terms are added in the same order on both sides.
  So the two results are the same function of the arguments, entry by entry, with no law of arithmetic needed and hence
  no use of the finiteness of the inputs:

    Layer.lean        the layer, entry by entry; an entry reads one row of each row matrix, one column of each weight
    Body.lean         the kernel body's stored block is the layer over the rows it loaded
    Blocks.lean       point t writes back block t of the layer of the arrays the region finds; the blocks cover the array
    HostRows.lean     the arrays the region finds for `down` and `up` are the reference's own values of the arguments
    HostWeights.lean  the arrays it finds for the weights are the arguments
    RefLayer.lean     the reference's result is the layer of x, its `down`, its `up` and the weights

  The three frames are the generated ones (the reference's is its generated run with the result dropped); the
  idealization rewrote nothing, so `preserves` is `True`.
-/
import proofs.«101061_j20151986553302_2_alg».proof.Defs
import proofs.«101061_j20151986553302_2_alg».proof.Proof.Gen.Kernel
import proofs.«101061_j20151986553302_2_alg».proof.Proof.Gen.Kernel.Skeleton
import proofs.«101061_j20151986553302_2_alg».proof.Proof.Gen.Kernel.Launch
import proofs.«101061_j20151986553302_2_alg».proof.Proof.Gen.Kernel.Points
import proofs.«101061_j20151986553302_2_alg».proof.Proof.Gen.Kernel.Frame
import proofs.«101061_j20151986553302_2_alg».proof.Proof.Gen.KernelIdeal
import proofs.«101061_j20151986553302_2_alg».proof.Proof.Gen.KernelIdeal.Skeleton
import proofs.«101061_j20151986553302_2_alg».proof.Proof.Gen.KernelIdeal.Launch
import proofs.«101061_j20151986553302_2_alg».proof.Proof.Gen.KernelIdeal.Points
import proofs.«101061_j20151986553302_2_alg».proof.Proof.Gen.KernelIdeal.Frame
import proofs.«101061_j20151986553302_2_alg».proof.Proof.Gen.ReferenceIdeal
import proofs.«101061_j20151986553302_2_alg».proof.Proof.Gen.Pre_finite_inputs
import proofs.«101061_j20151986553302_2_alg».proof.Proof.Gen.KernelIdeal.Value
import proofs.«101061_j20151986553302_2_alg».proof.Proof.Gen.ReferenceIdeal.Run
import proofs.«101061_j20151986553302_2_alg».proof.Proof.Gen.ReferenceIdeal.Read
import proofs.«101061_j20151986553302_2_alg».proof.Proof.Blocks
import proofs.«101061_j20151986553302_2_alg».proof.Proof.HostRows
import proofs.«101061_j20151986553302_2_alg».proof.Proof.HostWeights
import proofs.«101061_j20151986553302_2_alg».proof.Proof.RefLayer
import Idealize.ShloMosaic.Adequacy
import Idealize.ShloMosaic.Init

noncomputable section

namespace Cert.Proof

open Idealize.ShloMosaic Idealize.ShloMosaic.TcCoe Idealize.SL.Sem

/-- The layer of the arrays the kernel's region finds is the layer of the arguments: x is untouched, `down` and `up` are
    the reference's values of the arguments, the weights are the arguments. -/
theorem found_eq (m : (ℓ : Loc Cert.KernelIdeal.nD Cert.KernelIdeal.τ Cert.KernelIdeal.sig) → Buf (Elt Ideal) ℓ) (c : Dev Cert.KernelIdeal.nD) :
    Cert.KernelIdeal.Blocks.found m c
      = Cert.Layer.layer (m ((c.tc : Thread Cert.KernelIdeal.nD Cert.KernelIdeal.τ).loc Cert.KernelIdeal.main_arg0))
          (Cert.ReferenceIdeal.Read.val_main_v40 (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (Cert.ReferenceIdeal.Read.val_main_v87 (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg2)))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  unfold Cert.KernelIdeal.Blocks.found
  rw [Cert.KernelIdeal.Gen.V_main_arg0 m c, Cert.KernelIdeal.HostRows.found_down m c, Cert.KernelIdeal.HostRows.found_up m c,
    Cert.KernelIdeal.HostWeights.found_w0 m c, Cert.KernelIdeal.HostWeights.found_w1 m c, Cert.KernelIdeal.HostWeights.found_w2 m c]

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of the arguments in their result array: the kernel's by its blocks, the reference's
    by its last five lines; the arguments agree by hypothesis. -/
theorem algebraic : Cert.algebraic_KernelIdeal_ReferenceIdeal := by
  intro m ρ m' ρ' _ hagree
  refine ⟨fun c => Cert.KernelIdeal.Blocks.found m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v92 m' c = Cert.KernelIdeal.Blocks.found m c
  rw [Cert.ReferenceIdeal.Read.val_main_v92_eq, Cert.ReferenceIdeal.RefLayer.result_eq, found_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
